-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512x128 .f32) (main_arg6 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S100000x512 .f32) (main_arg1 : IVec S2x800000 32) (main_arg2 : FVec F S800000 .f32) (main_arg3 : FVec F S512x128 .f32) (main_arg4 : FVec F S128 .f32) (main_arg5 : FVec F S512x128 .f32) (main_arg6 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x512 : Shape := ⟨2, ![100000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S512 : Shape := ⟨1, ![512]⟩
abbrev S100000x128 : Shape := ⟨2, ![100000, 128]⟩
abbrev S4000x512 : Shape := ⟨2, ![4000, 512]⟩
abbrev S4000x128 : Shape := ⟨2, ![4000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x512 : Shape := ⟨2, ![128, 512]⟩
abbrev S1x128 : Shape := ⟨2, ![1, 128]⟩
abbrev S1x512 : Shape := ⟨2, ![1, 512]⟩

abbrev nBuf : Space → Nat
  | .hbm => 32
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S800000, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S100000x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S100000x128, .f32⟩
  | .hbm, ⟨26, _⟩ => ⟨S800000x1, .i32⟩
  | .hbm, ⟨27, _⟩ => ⟨S100000x128, .f32⟩
  | .hbm, ⟨28, _⟩ => ⟨S128x512, .f32⟩
  | .hbm, ⟨29, _⟩ => ⟨S1x128, .f32⟩
  | .hbm, ⟨30, _⟩ => ⟨S1x512, .f32⟩
  | .hbm, ⟨31, _⟩ => ⟨S100000x512, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x512, .f32⟩
  | .local _ .vmem, ⟨8, _⟩ => ⟨S1x128, .f32⟩
  | .local _ .vmem, ⟨9, _⟩ => ⟨S1x512, .f32⟩
  | .local _ .vmem, ⟨10, _⟩ => ⟨S4000x512, .f32⟩
  | .local _ .vmem, ⟨11, _⟩ => ⟨S4000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  transposes_S512x128_S128x512_1_0 : S512x128.Transposes [1, 0] S128x512
  shapeCasts_S128_S1x128 : S128.ShapeCasts S1x128
  shapeCasts_S512_S1x512 : S512.ShapeCasts S1x512
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  dot_S4000x512_S512x128_S4000x128_1_0_0_1_n_n_wf : DotDims.WF S4000x512 S512x128 S4000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x512_S4000x512_1_0_0_1_n_n_wf : DotDims.WF S4000x128 S128x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x512.size a ≤ S100000x512.size a
  hwx1_4 : ∀ i : grid1.Coords, EltTy.bits .f32 = 32 ∨ (Rect.block (s := S100000x512) S4000x512.size (cc1_transform_4 i) (hinb1_4 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x512_S4000x512_1_0_0_1_n_n : DotDims S4000x128 S128x512 S4000x512 where
  lhsContracting := [1]
  rhsContracting := [0]
  lhsNonContracting := [0]
  rhsNonContracting := [1]
  lhsBatch := []
  rhsBatch := []
  wf := dot_S4000x128_S128x512_S4000x512_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S4000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S512 : Shape := ⟨1, ![512]⟩
abbrev S100000x128 : Shape := ⟨2, ![100000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x512 : Shape := ⟨2, ![128, 512]⟩
abbrev S1x512 : Shape := ⟨2, ![1, 512]⟩

abbrev nBuf : Space → Nat
  | .hbm => 36
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S800000, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S100000x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S100000x128, .f32⟩
  | .hbm, ⟨26, _⟩ => ⟨S800000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S128x512, .f32⟩
  | .hbm, ⟨32, _⟩ => ⟨S100000x512, .f32⟩
  | .hbm, ⟨33, _⟩ => ⟨S1x512, .f32⟩
  | .hbm, ⟨34, _⟩ => ⟨S100000x512, .f32⟩
  | .hbm, ⟨35, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S100000x512_S512x128_S100000x128_1_0_0_1_n_n_wf : DotDims.WF S100000x512 S512x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x512_S100000x512_1_0_0_1_n_n_wf : DotDims.WF S100000x128 S128x512 S100000x512 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf

class Facts : Prop extends Facts₀ where

variable [Facts]
-- ==== Proof.ResultRun.lean ====
/-
  The whole program's run with its result named: every weakly fair execution terminates, nothing faults, the seven
  argument arrays end as launched, and the result array ends holding what the second region's write-backs leave — the
  contents of the last boundary of the fold through the program (first region, the host operations between the two
  regions, second region), read at the result's buffer. The run is the segments' launch that gives the frame; only the
  last step differs: the final state is read at the result's buffer too.
-/
import proofs.«158482_j14310831030635_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_result : θ_run defs (onTc (τ := τ) (main (F := F))) ⟨m, fun _ => 0, ρ⟩ (fun r => ∀ c : Dev nD,
      r.2.mem ((c.tc : Thread nD τ).loc main_v21) = W3 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v21 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Whole

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«158482_j14310831030635_2_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.TileValue.lean ====
/-
  What each kernel stores for one tile of 4000 rows, read at an entry (p, q) of the tile, on the extended reals.

  First kernel: the tile of features times the whole first weight matrix; the roundings to the narrow format on the
  way into the matrix unit are the identity here, and the accumulator starts at zero, so the entry is
      Σ_k x(p, k) · w(k, q).
  Second kernel: the hidden bias row is repeated down the tile's rows and added, the sum goes through the matrix unit
  against the whole transposed second weight matrix, and the output bias row is repeated and added:
      Σ_k (h(p, k) + bg(0, k)) · wT(k, q) + bf(0, q).
-/
import proofs.«158482_j14310831030635_2_alg».proof.Proof.Gen.KernelIdeal.Skeleton
import proofs.«158482_j14310831030635_2_alg».proof.Proof.LibPlainProduct
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The first kernel's stored tile at (p, q). -/
theorem first_at (x : Vec Ideal S4000x512 .f32) (w : Vec Ideal S512x128 .f32) (p : Fin 4000) (q : Fin 128) :
    k0_pay1 (F := Ideal) x w (ix2 p q) = ∑ k : Fin 512, x (ix2 p k) * w (ix2 k q) := by
  unfold k0_pay1
  exact PlainProduct.matmul_zero_at 4000 512 128 (truncf .bf16 x bitsLt_bf16_f32) (truncf .bf16 w bitsLt_bf16_f32) p q

/-- The second kernel's stored tile at (p, q). -/
theorem second_at (h : Vec Ideal S4000x128 .f32) (bg : Vec Ideal S1x128 .f32) (wT : Vec Ideal S128x512 .f32)
    (bf : Vec Ideal S1x512 .f32) (p : Fin 4000) (q : Fin 512) :
    k1_pay1 (F := Ideal) h bg wT bf (ix2 p q)
      = (∑ k : Fin 128, (h (ix2 p k) + bg (ix2 (0 : Fin 1) k)) * wT (ix2 k q)) + bf (ix2 (0 : Fin 1) q) := by
  unfold k1_pay1
  simp only [shapeCast_self]
  have eb : broadcastTo S4000x512 bf broadcasts_S1x512_S4000x512 (ix2 p q) = bf (ix2 (0 : Fin 1) q) :=
    broadcastTo_1b_ab_apply bf broadcasts_S1x512_S4000x512 p q
  have em : matmul dot_S4000x128_S128x512_S4000x512_1_0_0_1_n_n none
        (truncf .bf16 (addf h (broadcastTo S4000x128 bg broadcasts_S1x128_S4000x128)) bitsLt_bf16_f32)
        (truncf .bf16 wT bitsLt_bf16_f32) (constant (F := Ideal) S4000x512 .f32 0x00000000#32) (ix2 p q)
      = ∑ k : Fin 128, (h (ix2 p k) + bg (ix2 (0 : Fin 1) k)) * wT (ix2 k q) := by
    refine (PlainProduct.matmul_zero_at 4000 128 512 _ _ p q).trans ?_
    refine Finset.sum_congr rfl fun k _ => ?_
    exact congrArg (fun z => (h (ix2 p k) + z) * wT (ix2 k q))
      (broadcastTo_1b_ab_apply bg broadcasts_S1x128_S4000x128 p k)
  exact congrArg₂ (· + ·) em eb

end Cert.KernelIdeal.Tile

end
-- ==== Proof.DenseSpec.lean ====
/-
  The two dense layers of the network as functions of whole arrays, entry by entry, on the extended reals.

  First layer: row r of the features against column q of the first weight matrix,
      (a · w)(r, q) = Σ_k a(r, k) · w(k, q),                         k over the 512 input features.
  Second layer: row r of the aggregated hidden features, shifted by the hidden bias, against column q of the
  (already transposed) second weight matrix, plus the output bias,
      out(r, q) = Σ_k (h(r, k) + bg(0, k)) · wT(k, q) + bf(0, q),    k over the 128 hidden features,
  where the two biases arrive as one-row matrices.
  Both are plain finite sums of products: no law beyond reading each side's matrix product as this sum is used, so
  nothing here asks the entries to be finite.
-/
import Idealize.ShloMosaic.Lib.ValueIdx
import Idealize.ShloMosaic.PureOps.Ideal

noncomputable section

namespace Cert.Dense

open Idealize.ShloMosaic Idealize.ShloMosaic.ValueIdx

/-- The first dense layer: features [100000, 512] times weights [512, 128]. -/
def lin1 (a : FVec Ideal ⟨2, ![100000, 512]⟩ .f32) (w : FVec Ideal ⟨2, ![512, 128]⟩ .f32) :
    FVec Ideal ⟨2, ![100000, 128]⟩ .f32 :=
  fun i => ∑ k : Fin 512, a (ix2 (i 0) k) * w (ix2 k (i 1))

/-- The second dense layer: (hidden [100000, 128] + bias row [1, 128]) times weights [128, 512], plus bias row [1, 512]. -/
def lin2 (h : FVec Ideal ⟨2, ![100000, 128]⟩ .f32) (wT : FVec Ideal ⟨2, ![128, 512]⟩ .f32)
    (bg : FVec Ideal ⟨2, ![1, 128]⟩ .f32) (bf : FVec Ideal ⟨2, ![1, 512]⟩ .f32) :
    FVec Ideal ⟨2, ![100000, 512]⟩ .f32 :=
  fun i => (∑ k : Fin 128, (h (ix2 (i 0) k) + bg (ix2 (0 : Fin 1) k)) * wT (ix2 k (i 1))) + bf (ix2 (0 : Fin 1) (i 1))

end Cert.Dense

end
-- ==== Proof.FirstLayerArray.lean ====
/-
  The array the first kernel's region leaves, on the extended reals, whatever the buffers hold when it is entered.

  The grid has 25 points; point t fetches rows 4000·t … 4000·t + 3999 of the features, keeps the whole first weight
  matrix, and writes back rows 4000·t … 4000·t + 3999 of the result. What it writes back is that tile of the whole-array
  product (entry (4000·t + p, q) is Σ_k features(4000·t + p, k) · weights(k, q)), and the 25 tiles cover every row:
  row r lies in tile r / 4000. So the result array ends as the first dense layer of the two arrays.
-/
import proofs.«158482_j14310831030635_2_alg».proof.Proof.Gen.KernelIdeal.Frame
import proofs.«158482_j14310831030635_2_alg».proof.Proof.TileValue
import proofs.«158482_j14310831030635_2_alg».proof.Proof.DenseSpec
import Idealize.ShloMosaic.Lib.Pipeline.Value

noncomputable section

namespace Cert.KernelIdeal.Layer

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The bodies read and write their buffers from the corner. -/
theorem corner : (![0, 0] : Fin 2 → Nat) = fun _ => 0 := funext fun a => by fin_cases a <;> rfl

/-- The first region's index maps over its grid: the feature tile and the result tile move down with the point, the
    weights stay. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the first dense layer of the arrays as the region finds them. -/
theorem flushed0 (c : Dev nD) (t : Fin cfg0.N) :
    (dat0 V c).flushed 2 t
      = ((cfg0.win 2).blk t).view.read (Elt Ideal) (Dense.lin1 (V c main_arg0) (V c main_arg3)) := by
  show (cfg0.win 2).cut (grid0.coords t) ((dat0 V c).after 2 t) = _
  rw [after0_2]
  unfold out0_2
  rw [View.canon_unit_zero corner]
  simp only [View.ld_unit_zero (S := S4000x512) corner, View.ld_unit_zero (S := S512x128) corner]
  obtain ⟨e0, e1, e2, e3, e4, e5⟩ := maps0 t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q)
    = Dense.lin1 (V c main_arg0) (V c main_arg3) (((cfg0.win 2).blk t).view.emb (ix2 p q))
  refine (Tile.first_at (iblk0 V c 0 t) (iblk0 V c 1 t) p q).trans ?_
  unfold Dense.lin1
  refine Finset.sum_congr rfl fun k _ => ?_
  have hx : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * k.val = k.val; omega
  have hw : iblk0 V c 1 t (ix2 k q)
      = V c main_arg3 (ix2 k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  exact congrArg₂ (· * ·) hx hw

/-- An index of the result lies in point t's tile iff each coordinate lies in the tile's range. -/
theorem mem_tile0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v0).slice (win0_2.rect t)).set ↔ _
  rw [View.set_slice_whole, Rect.mem_set_unit]
  exact Iff.rfl

/-- Every row of the result lies in some point's tile: row r in tile r / 4000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  have ht : (i 0).val / 4000 < cfg0.N := by show (i 0).val / 4000 < grid0.N; rw [hN]; omega
  obtain ⟨-, -, -, -, e4, e5⟩ := maps0 ⟨(i 0).val / 4000, ht⟩
  refine ⟨⟨(i 0).val / 4000, ht⟩, flush0_2 _, ?_⟩
  rw [mem_tile0]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    rw [e5]; omega

/-- The result array after the region: the first dense layer of the features and the first weight matrix as the region
    finds them. -/
theorem array0 (c : Dev nD) :
    (dat0 V c).arrAt 2 cfg0.N = Dense.lin1 (V c main_arg0) (V c main_arg3) :=
  (dat0 V c).arrAt_eq_of_cover 2 (Dense.lin1 (V c main_arg0) (V c main_arg3)) (fun t _ => flushed0 V c t) cover0

end Cert.KernelIdeal.Layer

end
-- ==== Proof.SecondLayerArray.lean ====
/-
  The array the second kernel's region leaves, on the extended reals, whatever the buffers hold when it is entered.

  The grid has 25 points; point t fetches rows 4000·t … 4000·t + 3999 of the aggregated hidden features, keeps the whole
  transposed second weight matrix and the two one-row biases, and writes back rows 4000·t … 4000·t + 3999 of the output.
  What it writes back is that tile of the second dense layer of the whole arrays (entry (4000·t + p, q) is
  Σ_k (hidden(4000·t + p, k) + bias_g(0, k)) · weightsT(k, q) + bias_f(0, q)), and the 25 tiles cover every row.
-/
import proofs.«158482_j14310831030635_2_alg».proof.Proof.Gen.KernelIdeal.Frame
import proofs.«158482_j14310831030635_2_alg».proof.Proof.TileValue
import proofs.«158482_j14310831030635_2_alg».proof.Proof.DenseSpec
import Idealize.ShloMosaic.Lib.Pipeline.Value

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body reads and writes its buffers from the corner. -/
theorem corner : (![0, 0] : Fin 2 → Nat) = fun _ => 0 := funext fun a => by fin_cases a <;> rfl

/-- The second region's index maps over its grid: the hidden tile and the output tile move down with the point, the
    weights and the two bias rows stay. -/
theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is tile t of the second dense layer of the arrays as the region finds them. -/
theorem flushed1 (c : Dev nD) (t : Fin cfg1.N) :
    (dat1 V c).flushed 4 t
      = ((cfg1.win 4).blk t).view.read (Elt Ideal)
          (Dense.lin2 (V c main_v17) (V c main_v18) (V c main_v19) (V c main_v20)) := by
  show (cfg1.win 4).cut (grid1.coords t) ((dat1 V c).after 4 t) = _
  rw [after1_4]
  unfold out1_4
  rw [View.canon_unit_zero corner]
  simp only [View.ld_unit_zero (S := S4000x128) corner, View.ld_unit_zero (S := S128x512) corner,
    View.ld_unit_zero (S := S1x128) corner, View.ld_unit_zero (S := S1x512) corner]
  obtain ⟨e0, e1, e2, e3, e4, e5, e6, e7, e8, e9⟩ := maps1 t
  funext j
  obtain ⟨p, q, rfl⟩ : ∃ (p : Fin 4000) (q : Fin 512), j = ix2 p q := ⟨j 0, j 1, eq_ix2 j⟩
  show k1_pay1 (F := Ideal) (iblk1 V c 0 t) (iblk1 V c 2 t) (iblk1 V c 1 t) (iblk1 V c 3 t) (ix2 p q)
    = Dense.lin2 (V c main_v17) (V c main_v18) (V c main_v19) (V c main_v20) (((cfg1.win 4).blk t).view.emb (ix2 p q))
  refine (Tile.second_at (iblk1 V c 0 t) (iblk1 V c 2 t) (iblk1 V c 1 t) (iblk1 V c 3 t) p q).trans ?_
  unfold Dense.lin2
  have hf : iblk1 V c 3 t (ix2 (0 : Fin 1) q)
      = V c main_v20 (ix2 (0 : Fin 1) ((((cfg1.win 4).blk t).view.emb (ix2 p q)) 1)) := by
    show V c main_v20 (((cfg1.win 3).blk t).view.emb (ix2 (0 : Fin 1) q)) = _
    refine congrArg (V c main_v20) (funext fun a => Fin.ext ?_)
    match a with
    | ⟨0, _⟩ => show win1_3.index t (0 : Fin 2) * 1 + 1 * 0 = 0; omega
    | ⟨1, _⟩ => show win1_3.index t (1 : Fin 2) * 512 + 1 * q.val = win1_4.index t (1 : Fin 2) * 512 + 1 * q.val; omega
  refine congrArg₂ (· + ·) (Finset.sum_congr rfl fun k _ => ?_) hf
  have hh : iblk1 V c 0 t (ix2 p k)
      = V c main_v17 (ix2 ((((cfg1.win 4).blk t).view.emb (ix2 p q)) 0) k) := by
    show V c main_v17 (((cfg1.win 0).blk t).view.emb (ix2 p k)) = _
    refine congrArg (V c main_v17) (funext fun a => Fin.ext ?_)
    match a with
    | ⟨0, _⟩ => show win1_0.index t (0 : Fin 2) * 4000 + 1 * p.val = win1_4.index t (0 : Fin 2) * 4000 + 1 * p.val; omega
    | ⟨1, _⟩ => show win1_0.index t (1 : Fin 2) * 128 + 1 * k.val = k.val; omega
  have hg : iblk1 V c 2 t (ix2 (0 : Fin 1) k) = V c main_v19 (ix2 (0 : Fin 1) k) := by
    show V c main_v19 (((cfg1.win 2).blk t).view.emb (ix2 (0 : Fin 1) k)) = _
    refine congrArg (V c main_v19) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have hw : iblk1 V c 1 t (ix2 k q)
      = V c main_v18 (ix2 k ((((cfg1.win 4).blk t).view.emb (ix2 p q)) 1)) := by
    show V c main_v18 (((cfg1.win 1).blk t).view.emb (ix2 k q)) = _
    refine congrArg (V c main_v18) (funext fun a => Fin.ext ?_)
    match a with
    | ⟨0, _⟩ => show win1_1.index t (0 : Fin 2) * 128 + 1 * k.val = k.val; omega
    | ⟨1, _⟩ => show win1_1.index t (1 : Fin 2) * 512 + 1 * q.val = win1_4.index t (1 : Fin 2) * 512 + 1 * q.val; omega
  exact congrArg₂ (· * ·) (congrArg₂ (· + ·) hh hg) hw

/-- An index of the output lies in point t's tile iff each coordinate lies in the tile's range. -/
theorem mem_tile1 (t : Fin cfg1.N) (i : S100000x512.Idx) :
    i ∈ ((cfg1.win 4).blk t).view.set ↔ ∀ a : Fin 2, win1_4.index t a * S4000x512.size a ≤ (i a).val
      ∧ (i a).val < win1_4.index t a * S4000x512.size a + S4000x512.size a := by
  show i ∈ ((View.whole main_v21).slice (win1_4.rect t)).set ↔ _
  rw [View.set_slice_whole, Rect.mem_set_unit]
  exact Iff.rfl

/-- Every row of the output lies in some point's tile: row r in tile r / 4000. -/
theorem cover1 (i : S100000x512.Idx) :
    ∃ t : Fin cfg1.N, (cfg1.win 4).flush t = true ∧ i ∈ ((cfg1.win 4).blk t).view.set := by
  have hi0 : (i 0).val < 100000 := (i 0).isLt
  have hi1 : (i 1).val < 512 := (i 1).isLt
  have hN : grid1.N = 25 := N_1
  have ht : (i 0).val / 4000 < cfg1.N := by show (i 0).val / 4000 < grid1.N; rw [hN]; omega
  obtain ⟨-, -, -, -, -, -, -, -, e8, e9⟩ := maps1 ⟨(i 0).val / 4000, ht⟩
  refine ⟨⟨(i 0).val / 4000, ht⟩, flush1_4 _, ?_⟩
  rw [mem_tile1]
  intro a
  match a with
  | ⟨0, _⟩ =>
    show win1_4.index ⟨(i 0).val / 4000, ht⟩ (0 : Fin 2) * 4000 ≤ (i 0).val
      ∧ (i 0).val < win1_4.index ⟨(i 0).val / 4000, ht⟩ (0 : Fin 2) * 4000 + 4000
    rw [e8]; show (i 0).val / 4000 * 4000 ≤ (i 0).val ∧ (i 0).val < (i 0).val / 4000 * 4000 + 4000; omega
  | ⟨1, _⟩ =>
    show win1_4.index ⟨(i 0).val / 4000, ht⟩ (1 : Fin 2) * 512 ≤ (i 1).val
      ∧ (i 1).val < win1_4.index ⟨(i 0).val / 4000, ht⟩ (1 : Fin 2) * 512 + 512
    rw [e9]; omega

/-- The output array after the region: the second dense layer of the four arrays as the region finds them. -/
theorem array1 (c : Dev nD) :
    (dat1 V c).arrAt 4 cfg1.N = Dense.lin2 (V c main_v17) (V c main_v18) (V c main_v19) (V c main_v20) :=
  (dat1 V c).arrAt_eq_of_cover 4 (Dense.lin2 (V c main_v17) (V c main_v18) (V c main_v19) (V c main_v20))
    (fun t _ => flushed1 V c t) cover1

end Cert.KernelIdeal.Layer2

end
-- ==== Proof.BetweenRegions.lean ====
/-
  What the second region finds when it is entered: the host operations between the two regions, read off the fold.

  The aggregation — split the edge list into sources and destinations, wrap negative sources around, gather the rows of
  the first layer's result at the sources, weight each gathered row by its edge's attribute, and add the weighted rows
  into zeros at the destinations — is ONE function of the first layer's result, the edge list and the edge attributes.
  It is carried as that one function and never opened: the reference applies the very same operations to its own first
  layer's result. Beside it the stretch transposes the second weight matrix and casts the two bias vectors to one-row
  matrices. Nothing in the stretch, and no region, writes an argument, so each argument is read as launched.
-/
import proofs.«158482_j14310831030635_2_alg».proof.Proof.Gen.KernelIdeal.Frame
import Idealize.ShloMosaic.Lib.StableHlo.Run

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]

/-- The sources of the edges: row 0 of the edge list, as a vector. -/
def sources (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The aggregation of the first layer's result x along the edges e with attributes a. -/
def aggregate (x : (⟨S100000x128, .f32⟩ : BufTy).Contents (Elt F)) (e : (⟨S2x800000, .i32⟩ : BufTy).Contents (Elt F))
    (a : (⟨S800000, .f32⟩ : BufTy).Contents (Elt F)) : (⟨S100000x128, .f32⟩ : BufTy).Contents (Elt F) :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0
      (shapeCast _ (extractStridedSlice S1x800000 ![1, 0] e slices_S2x800000_S1x800000_1_0) shapeCasts_S1x800000_S800000))
    (mulf
      (Host.gather gather_S100000x128_S800000x1_S800000x128_1_0_n_n_0_1_1128 x
        (broadcastInDim S800000x1 ![0] bcast_S800000_S800000x1_0
          (select (cmpi .slt (sources (F := F) e) (broadcastInDim S800000 ![] bcast_S_S800000 (constantI S_ 32 0#32)))
            (addi (sources (F := F) e) (broadcastInDim S800000 ![] bcast_S_S800000 (constantI S_ 32 100000#32)))
            (sources (F := F) e))))
      (broadcastInDim S800000x128 ![0, 1] bcast_S800000x1_S800000x128_0_1
        (broadcastInDim S800000x1 ![0] bcast_S800000_S800000x1_0 a)))

variable (m : (ℓ : Loc nD τ sig) → Buf (Elt F) ℓ) (ρ : Dev nD → PrngReg)

/-! ## The arguments at the first region's exit -/

theorem exit_arg1 (c : Dev nD) : W1 m ρ c (Proc.devRef .tc main_arg1) = m ((c : Thread nD τ).loc main_arg1) :=
  (W1_of_ne m ρ c main_arg1 (by decide)).trans rfl
theorem exit_arg2 (c : Dev nD) : W1 m ρ c (Proc.devRef .tc main_arg2) = m ((c : Thread nD τ).loc main_arg2) :=
  (W1_of_ne m ρ c main_arg2 (by decide)).trans rfl
theorem exit_arg4 (c : Dev nD) : W1 m ρ c (Proc.devRef .tc main_arg4) = m ((c : Thread nD τ).loc main_arg4) :=
  (W1_of_ne m ρ c main_arg4 (by decide)).trans rfl
theorem exit_arg5 (c : Dev nD) : W1 m ρ c (Proc.devRef .tc main_arg5) = m ((c : Thread nD τ).loc main_arg5) :=
  (W1_of_ne m ρ c main_arg5 (by decide)).trans rfl
theorem exit_arg6 (c : Dev nD) : W1 m ρ c (Proc.devRef .tc main_arg6) = m ((c : Thread nD τ).loc main_arg6) :=
  (W1_of_ne m ρ c main_arg6 (by decide)).trans rfl

/-- The first region's result array at its exit is what its write-backs leave. -/
theorem exit_first (c : Dev nD) : W1 m ρ c (Proc.devRef .tc main_v0) = (dat0 (V0 m ρ) c).arrAt 2 cfg0.N :=
  W1_arr m ρ c 2

/-! ## The second region's four input arrays at its entry -/

/-- The hidden features: the aggregation of the first region's result. -/
theorem entry_hidden (c : Dev nD) :
    V2 m ρ c main_v17 = aggregate (F := F) (W1 m ρ c (Proc.devRef .tc main_v0)) (W1 m ρ c (Proc.devRef .tc main_arg1))
      (W1 m ρ c (Proc.devRef .tc main_arg2)) := by
  show StableHlo.after hostOps1 (W1 m ρ c) (Proc.devRef .tc main_v17) = _
  after_results <;> rfl

/-- The second weight matrix, transposed. -/
theorem entry_weights (c : Dev nD) :
    V2 m ρ c main_v18 = transpose S128x512 [1, 0] (W1 m ρ c (Proc.devRef .tc main_arg5)) transposes_S512x128_S128x512_1_0 := by
  show StableHlo.after hostOps1 (W1 m ρ c) (Proc.devRef .tc main_v18) = _
  after_results <;> rfl

/-- The hidden bias as one row. -/
theorem entry_bias_g (c : Dev nD) :
    V2 m ρ c main_v19 = shapeCast S1x128 (W1 m ρ c (Proc.devRef .tc main_arg4)) shapeCasts_S128_S1x128 := by
  show StableHlo.after hostOps1 (W1 m ρ c) (Proc.devRef .tc main_v19) = _
  after_results <;> rfl

/-- The output bias as one row. -/
theorem entry_bias_f (c : Dev nD) :
    V2 m ρ c main_v20 = shapeCast S1x512 (W1 m ρ c (Proc.devRef .tc main_arg6)) shapeCasts_S512_S1x512 := by
  show StableHlo.after hostOps1 (W1 m ρ c) (Proc.devRef .tc main_v20) = _
  after_results <;> rfl

end Cert.KernelIdeal.Between

end
-- ==== Proof.Network.lean ====
/-
  The whole network as one function of the seven arguments, on the extended reals: the first dense layer of the features,
  aggregated along the edges, through the second dense layer with the second weight matrix transposed and the two biases
  as one-row matrices.
-/
import proofs.«158482_j14310831030635_2_alg».proof.Proof.BetweenRegions
import proofs.«158482_j14310831030635_2_alg».proof.Proof.DenseSpec

noncomputable section

namespace Cert.KernelIdeal.Net

open Cert.KernelIdeal Cert.KernelIdeal.Gen Idealize.ShloMosaic

/-- The network's output [100000, 512] from features, edge list, edge attributes, first weights, hidden bias, second
    weights and output bias. -/
def network (x0 : (⟨S100000x512, .f32⟩ : BufTy).Contents (Elt Ideal)) (x1 : (⟨S2x800000, .i32⟩ : BufTy).Contents (Elt Ideal))
    (x2 : (⟨S800000, .f32⟩ : BufTy).Contents (Elt Ideal)) (x3 : (⟨S512x128, .f32⟩ : BufTy).Contents (Elt Ideal))
    (x4 : (⟨S128, .f32⟩ : BufTy).Contents (Elt Ideal)) (x5 : (⟨S512x128, .f32⟩ : BufTy).Contents (Elt Ideal))
    (x6 : (⟨S512, .f32⟩ : BufTy).Contents (Elt Ideal)) : (⟨S100000x512, .f32⟩ : BufTy).Contents (Elt Ideal) :=
  Cert.Dense.lin2 (Between.aggregate (F := Ideal) (Cert.Dense.lin1 x0 x3) x1 x2)
    (transpose S128x512 [1, 0] x5 transposes_S512x128_S128x512_1_0)
    (shapeCast S1x128 x4 shapeCasts_S128_S1x128)
    (shapeCast S1x512 x6 shapeCasts_S512_S1x512)

end Cert.KernelIdeal.Net

end
-- ==== Proof.KernelValue.lean ====
/-
  The kernel's program, run on the extended reals, ends with its result array holding the network of its arguments.

  The last boundary of the fold, at the result's buffer, is what the second region's write-backs leave: the second dense
  layer of the four arrays the region finds. Those are what the host operations between the regions make of the first
  region's exit contents: the aggregation of the first region's result — itself the first dense layer of the features and
  the first weights as launched — along the launched edges, the launched second weights transposed, and the two launched
  biases as rows.
-/
import proofs.«158482_j14310831030635_2_alg».proof.Proof.ResultRun
import proofs.«158482_j14310831030635_2_alg».proof.Proof.FirstLayerArray
import proofs.«158482_j14310831030635_2_alg».proof.Proof.SecondLayerArray
import proofs.«158482_j14310831030635_2_alg».proof.Proof.Network

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first region is entered from the launch memory. -/
theorem launch_arg0 (c : Dev nD) : V0 m ρ c main_arg0 = m ((c : Thread nD τ).loc main_arg0) := rfl
theorem launch_arg3 (c : Dev nD) : V0 m ρ c main_arg3 = m ((c : Thread nD τ).loc main_arg3) := rfl

/-- The result's buffer at the last boundary holds the network of the launched arguments. -/
theorem last_boundary (c : Dev nD) :
    W3 m ρ c (Proc.devRef .tc main_v21)
      = Net.network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (W3_arr m ρ c 4).trans ?_
  rw [Layer2.array1 (V2 m ρ) c, Between.entry_hidden, Between.entry_weights, Between.entry_bias_g, Between.entry_bias_f,
    Between.exit_first, Layer.array0 (V0 m ρ) c, launch_arg0, launch_arg3, Between.exit_arg1, Between.exit_arg2,
    Between.exit_arg4, Between.exit_arg5, Between.exit_arg6]
  rfl

/-- The run: the result array ends at the network of the arguments, the arguments as launched. -/
theorem run : θ_run defs (onTc (τ := τ) (main (F := Ideal))) ⟨m, fun _ => 0, ρ⟩ (fun r => ∀ c : Dev nD,
      r.2.mem ((c.tc : Thread nD τ).loc main_v21)
        = Net.network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (last_boundary m ρ c), (h c).2⟩) (run_result m ρ)

end Cert.KernelIdeal.Whole

end
-- ==== Proof.LibRowCast.lean ====
/-
  A vector of n entries as a one-row matrix, two spellings: the cast of the vector to the shape [1, n], and the
  broadcast of the vector along axis 1 into that shape. Both read the vector's entry q at (0, q).
-/
import Idealize.ShloMosaic.Lib.Pipeline.Value
import Idealize.ShloMosaic.Lib.ValueIdx

namespace Idealize.ShloMosaic.RowCast

open Idealize.ShloMosaic Idealize.ShloMosaic.ValueIdx

/-- The cast of a vector to one row is its broadcast along the row's axis. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have hi : i = ix2 (0 : Fin 1) (i 1 : Fin n) := by
    funext a
    match a with
    | ⟨0, _⟩ => exact Fin.ext (Nat.lt_one_iff.mp (i 0).isLt)
    | ⟨1, _⟩ => rfl
  rw [hi]
  have e2 := shapeCast_apply x h1 (ix2 (0 : Fin 1) (i 1 : Fin n)) (ix1 (i 1 : Fin n)) (by
    rw [Shape.rowMajor_val_two, Shape.rowMajor_val_one]; show (i 1).val = 0 * n + (i 1).val; omega)
  have e3 := broadcastInDim_apply ![1] hd x (ix2 (0 : Fin 1) (i 1 : Fin n)) (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast
-- ==== Proof.ReferenceValue.lean ====
/-
  The reference's result, on the extended reals, as the two dense layers around the aggregation.

  Stage by stage: its first product is the first dense layer (the host's product is the plain sum over the 512 input
  features); its gather / weight / scatter-add chain is, operation for operation, the aggregation the kernel's program
  applies between its two regions; the hidden bias is broadcast first to one row and then down the rows, which at
  (r, k) reads the vector's entry k — as the one-row cast of the vector does at (0, k); the second product is the plain
  sum over the 128 hidden features against the transposed second weight matrix; and the output bias is broadcast the same
  way and added. That is the second dense layer of the aggregated first layer.
-/
import proofs.«158482_j14310831030635_2_alg».proof.Proof.Gen.ReferenceIdeal.Read
import proofs.«158482_j14310831030635_2_alg».proof.Proof.Network
import proofs.«158482_j14310831030635_2_alg».proof.Proof.LibRowCast

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The reference's first product is the first dense layer. -/
theorem first_layer (x0 : (⟨S100000x512, .f32⟩ : BufTy).Contents (Elt Ideal)) (x3 : (⟨S512x128, .f32⟩ : BufTy).Contents (Elt Ideal)) :
    val_main_v0 (F := Ideal) x0 x3 = Cert.Dense.lin1 x0 x3 := by
  funext i
  obtain ⟨r, q, rfl⟩ : ∃ (r : Fin 100000) (q : Fin 128), i = ix2 r q := ⟨i 0, i 1, eq_ix2 i⟩
  rw [val_main_v0_apply]
  show (∑ k : Fin 512, x0 (lidx_main_v0 (ix2 r q) k) * x3 (ridx_main_v0 (ix2 r q) k))
    = ∑ k : Fin 512, x0 (ix2 r k) * x3 (ix2 k q)
  refine Finset.sum_congr rfl fun k _ => ?_
  have el : lidx_main_v0 (ix2 r q) k = ix2 r k := funext fun a => Fin.ext (by
    match a with
    | ⟨0, _⟩ => rfl
    | ⟨1, _⟩ => rfl)
  have er : ridx_main_v0 (ix2 r q) k = ix2 k q := funext fun a => Fin.ext (by
    match a with
    | ⟨0, _⟩ => rfl
    | ⟨1, _⟩ => rfl)
  exact congrArg₂ (· * ·) (congrArg x0 el) (congrArg x3 er)

/-- The reference's gather / weight / scatter-add chain is the aggregation, applied to its own first product. -/
theorem hidden (x0 : (⟨S100000x512, .f32⟩ : BufTy).Contents (Elt Ideal)) (x1 : (⟨S2x800000, .i32⟩ : BufTy).Contents (Elt Ideal))
    (x2 : (⟨S800000, .f32⟩ : BufTy).Contents (Elt Ideal)) (x3 : (⟨S512x128, .f32⟩ : BufTy).Contents (Elt Ideal)) :
    val_main_v17 (F := Ideal) x0 x1 x2 x3
      = Cert.KernelIdeal.Between.aggregate (F := Ideal) (val_main_v0 (F := Ideal) x0 x3) x1 x2 := rfl

/-- The hidden bias broadcast to one row is its cast to one row. -/
theorem row_g (x4 : (⟨S128, .f32⟩ : BufTy).Contents (Elt Ideal)) :
    val_main_v18 (F := Ideal) x4 = shapeCast Cert.KernelIdeal.S1x128 x4 Cert.KernelIdeal.Gen.shapeCasts_S128_S1x128 :=
  (RowCast.shapeCast_row_eq_broadcastInDim x4 Cert.KernelIdeal.Gen.shapeCasts_S128_S1x128 bcast_S128_S1x128_1).symm

/-- The output bias broadcast to one row is its cast to one row. -/
theorem row_f (x6 : (⟨S512, .f32⟩ : BufTy).Contents (Elt Ideal)) :
    val_main_v23 (F := Ideal) x6 = shapeCast Cert.KernelIdeal.S1x512 x6 Cert.KernelIdeal.Gen.shapeCasts_S512_S1x512 :=
  (RowCast.shapeCast_row_eq_broadcastInDim x6 Cert.KernelIdeal.Gen.shapeCasts_S512_S1x512 bcast_S512_S1x512_1).symm

/-- The reference's result is the second dense layer of the aggregated first dense layer. -/
theorem result_eq (x0 : (⟨S100000x512, .f32⟩ : BufTy).Contents (Elt Ideal)) (x1 : (⟨S2x800000, .i32⟩ : BufTy).Contents (Elt Ideal))
    (x2 : (⟨S800000, .f32⟩ : BufTy).Contents (Elt Ideal)) (x3 : (⟨S512x128, .f32⟩ : BufTy).Contents (Elt Ideal))
    (x4 : (⟨S128, .f32⟩ : BufTy).Contents (Elt Ideal)) (x5 : (⟨S512x128, .f32⟩ : BufTy).Contents (Elt Ideal))
    (x6 : (⟨S512, .f32⟩ : BufTy).Contents (Elt Ideal)) :
    val_main_v25 (F := Ideal) x0 x1 x2 x3 x4 x5 x6
      = Cert.KernelIdeal.Net.network x0 x1 x2 x3 x4 x5 x6 := by
  funext i
  obtain ⟨r, q, rfl⟩ : ∃ (r : Fin 100000) (q : Fin 512), i = ix2 r q := ⟨i 0, i 1, eq_ix2 i⟩
  rw [val_main_v25_apply, val_main_v22_apply, val_main_v24_apply, row_f]
  have e24 : idx_main_v24 (ix2 r q) = ix2 (0 : Fin 1) q := funext fun a => Fin.ext (by
    match a with
    | ⟨0, _⟩ => rfl
    | ⟨1, _⟩ => rfl)
  rw [e24]
  show (∑ k : Fin 128, val_main_v20 (F := Ideal) x0 x1 x2 x3 x4 (lidx_main_v22 (ix2 r q) k)
        * val_main_v21 (F := Ideal) x5 (ridx_main_v22 (ix2 r q) k))
      + shapeCast Cert.KernelIdeal.S1x512 x6 Cert.KernelIdeal.Gen.shapeCasts_S512_S1x512 (ix2 (0 : Fin 1) q)
    = (∑ k : Fin 128, (Cert.KernelIdeal.Between.aggregate (F := Ideal) (Cert.Dense.lin1 x0 x3) x1 x2 (ix2 r k)
          + shapeCast Cert.KernelIdeal.S1x128 x4 Cert.KernelIdeal.Gen.shapeCasts_S128_S1x128 (ix2 (0 : Fin 1) k))
        * transpose Cert.KernelIdeal.S128x512 [1, 0] x5 Cert.KernelIdeal.Gen.transposes_S512x128_S128x512_1_0 (ix2 k q))
      + shapeCast Cert.KernelIdeal.S1x512 x6 Cert.KernelIdeal.Gen.shapeCasts_S512_S1x512 (ix2 (0 : Fin 1) q)
  refine congrArg (· + shapeCast Cert.KernelIdeal.S1x512 x6 Cert.KernelIdeal.Gen.shapeCasts_S512_S1x512 (ix2 (0 : Fin 1) q))
    (Finset.sum_congr rfl fun k _ => ?_)
  have el : lidx_main_v22 (ix2 r q) k = ix2 r k := funext fun a => Fin.ext (by
    match a with
    | ⟨0, _⟩ => rfl
    | ⟨1, _⟩ => rfl)
  have er : ridx_main_v22 (ix2 r q) k = ix2 k q := funext fun a => Fin.ext (by
    match a with
    | ⟨0, _⟩ => rfl
    | ⟨1, _⟩ => rfl)
  have e19 : idx_main_v19 (ix2 r k) = ix2 (0 : Fin 1) k := funext fun a => Fin.ext (by
    match a with
    | ⟨0, _⟩ => rfl
    | ⟨1, _⟩ => rfl)
  rw [el, er, val_main_v20_apply, val_main_v19_apply, e19, row_g, hidden, first_layer]
  rfl

end Cert.ReferenceIdeal.RefValue

end
-- ==== Proof.lean ====
/-
  A two-layer graph network: out = (aggregate(X · W₁) + b₁) · W₂ᵀ + b₂ over 100000 nodes and 800000 weighted edges.

  The kernel's program computes X · W₁ in a first grid of 25 row tiles, aggregates on the host (gather the rows at the
  edges' sources, weight them by the edge attributes, add them up at the edges' destinations), and computes
  (h + b₁) · W₂ᵀ + b₂ in a second grid of 25 row tiles, with the bias b₁ added inside the second kernel. The reference
  computes the same with two whole-array products, adding b₁ before the second product.

  On the extended reals the roundings into the matrix unit are the identity, a matrix-unit product into zeros and the
  host's product are both the plain sum Σ_k x(r, k) · w(k, q), each grid's tiles cover every row, and the aggregation is
  literally the same chain of host operations on both sides — it is carried as one function and never opened. So both
  results are the same function of the arguments, entry by entry, with no algebra beyond reading each product as its
  sum: the finiteness of the inputs is not used.

  The three programs terminate without fault and leave their arguments unchanged (the frames); the idealization rewrote
  no operation of the kernel's program, so there is nothing to preserve.
-/
import proofs.«158482_j14310831030635_2_alg».proof.Defs
import proofs.«158482_j14310831030635_2_alg».proof.Proof.Gen.Kernel
import proofs.«158482_j14310831030635_2_alg».proof.Proof.Gen.Kernel.Skeleton
import proofs.«158482_j14310831030635_2_alg».proof.Proof.Gen.Kernel.Launch
import proofs.«158482_j14310831030635_2_alg».proof.Proof.Gen.Kernel.Points
import proofs.«158482_j14310831030635_2_alg».proof.Proof.Gen.Kernel.Frame
import proofs.«158482_j14310831030635_2_alg».proof.Proof.Gen.KernelIdeal
import proofs.«158482_j14310831030635_2_alg».proof.Proof.Gen.KernelIdeal.Skeleton
import proofs.«158482_j14310831030635_2_alg».proof.Proof.Gen.KernelIdeal.Launch
import proofs.«158482_j14310831030635_2_alg».proof.Proof.Gen.KernelIdeal.Points
import proofs.«158482_j14310831030635_2_alg».proof.Proof.Gen.KernelIdeal.Frame
import proofs.«158482_j14310831030635_2_alg».proof.Proof.Gen.ReferenceIdeal
import proofs.«158482_j14310831030635_2_alg».proof.Proof.Gen.ReferenceIdeal.Run
import proofs.«158482_j14310831030635_2_alg».proof.Proof.Gen.ReferenceIdeal.Read
import proofs.«158482_j14310831030635_2_alg».proof.Proof.Gen.Pre_finite_inputs
import proofs.«158482_j14310831030635_2_alg».proof.Proof.KernelValue
import proofs.«158482_j14310831030635_2_alg».proof.Proof.ReferenceValue
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- The idealized program runs and keeps its arguments. -/
theorem frame_kernel_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the network of the arguments, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
